-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x8192 : Shape := ⟨2, ![512, 8192]⟩
abbrev S65536x16 : Shape := ⟨2, ![65536, 16]⟩
abbrev S65536x2 : Shape := ⟨2, ![65536, 2]⟩
abbrev S_ : Shape := ⟨0, ![]⟩

class Facts : Prop where
  bcast_S_S512x8192 : S_.BroadcastsInDim S512x8192 (![] : Fin 0 → Fin S512x8192.rank)
  reducesTo_S512x8192_S_d0_1 : S512x8192.ReducesTo [0, 1] S_
  h_S_ : 0 < S_.numel
  bcast_S_S65536x16 : S_.BroadcastsInDim S65536x16 (![] : Fin 0 → Fin S65536x16.rank)
  reducesTo_S65536x16_S_d0_1 : S65536x16.ReducesTo [0, 1] S_

variable [Facts]

def fn {F : FTy → Type} [FloatOps F] (main_arg0 : FVec F S512x8192 .f32) (main_arg1 : FVec F S65536x16 .f32) (main_arg2 : IVec S65536x2 32) : IVec S_ 1 :=
  let main_v0 : FVec F S512x8192 .f32 := Host.absf main_arg0
  let main_cst : FVec F S_ .f32 := constant S_ .f32 0x7F800000#32
  let main_v1 : FVec F S512x8192 .f32 := broadcastInDim S512x8192 ![] bcast_S_S512x8192 main_cst
  let main_v2 : IVec S512x8192 1 := cmpf .olt main_v0 main_v1
  let main_c : IVec S_ 1 := constantI S_ 1 1#1
  let main_v3 : IVec S_ 1 := (fun x v => Host.reduce IntOp.andi x v reducesTo_S512x8192_S_d0_1 h_S_) main_v2 main_c
  let main_v4 : FVec F S65536x16 .f32 := Host.absf main_arg1
  let main_cst_0 : FVec F S_ .f32 := constant S_ .f32 0x7F800000#32
  let main_v5 : FVec F S65536x16 .f32 := broadcastInDim S65536x16 ![] bcast_S_S65536x16 main_cst_0
  let main_v6 : IVec S65536x16 1 := cmpf .olt main_v4 main_v5
  let main_c_1 : IVec S_ 1 := constantI S_ 1 1#1
  let main_v7 : IVec S_ 1 := (fun x v => Host.reduce IntOp.andi x v reducesTo_S65536x16_S_d0_1 h_S_) main_v6 main_c_1
  let main_v8 : IVec S_ 1 := andi main_v3 main_v7
  main_v8
-- ==== Kernel.lean ====
abbrev S512x8192 : Shape := ⟨2, ![512, 8192]⟩
abbrev S65536x16 : Shape := ⟨2, ![65536, 16]⟩
abbrev S65536x2 : Shape := ⟨2, ![65536, 2]⟩
abbrev S16x4 : Shape := ⟨2, ![16, 4]⟩
abbrev S_ : Shape := ⟨0, ![]⟩
abbrev S65536 : Shape := ⟨1, ![65536]⟩
abbrev S65536x1 : Shape := ⟨2, ![65536, 1]⟩
abbrev S65536x4 : Shape := ⟨2, ![65536, 4]⟩
abbrev S4x65536 : Shape := ⟨2, ![4, 65536]⟩
abbrev S512x65536 : Shape := ⟨2, ![512, 65536]⟩
abbrev S512x2048 : Shape := ⟨2, ![512, 2048]⟩
abbrev S4x2048 : Shape := ⟨2, ![4, 2048]⟩
abbrev S1x2048 : Shape := ⟨2, ![1, 2048]⟩

abbrev nBuf : Space → Nat
  | .hbm => 46
  | .vmem => 8
  | .smem => 0
  | _ => 0

abbrev bufTy : (tb : Table) → Fin (tcTables nBuf tb) → BufTy
  | .hbm, ⟨0, _⟩ => ⟨S512x8192, .f32⟩
  | .hbm, ⟨1, _⟩ => ⟨S65536x16, .f32⟩
  | .hbm, ⟨2, _⟩ => ⟨S65536x2, .i32⟩
  | .hbm, ⟨3, _⟩ => ⟨S16x4, .f32⟩
  | .hbm, ⟨4, _⟩ => ⟨S_, .f32⟩
  | .hbm, ⟨5, _⟩ => ⟨S65536x16, .f32⟩
  | .hbm, ⟨6, _⟩ => ⟨S65536x16, .f32⟩
  | .hbm, ⟨7, _⟩ => ⟨S_, .f32⟩
  | .hbm, ⟨8, _⟩ => ⟨S65536, .f32⟩
  | .hbm, ⟨9, _⟩ => ⟨S_, .f32⟩
  | .hbm, ⟨10, _⟩ => ⟨S65536, .f32⟩
  | .hbm, ⟨11, _⟩ => ⟨S65536, .f32⟩
  | .hbm, ⟨12, _⟩ => ⟨S65536x1, .f32⟩
  | .hbm, ⟨13, _⟩ => ⟨S65536x16, .f32⟩
  | .hbm, ⟨14, _⟩ => ⟨S65536x16, .f32⟩
  | .hbm, ⟨15, _⟩ => ⟨S65536x16, .f32⟩
  | .hbm, ⟨16, _⟩ => ⟨S_, .f32⟩
  | .hbm, ⟨17, _⟩ => ⟨S65536, .f32⟩
  | .hbm, ⟨18, _⟩ => ⟨S65536x1, .f32⟩
  | .hbm, ⟨19, _⟩ => ⟨S65536x16, .f32⟩
  | .hbm, ⟨20, _⟩ => ⟨S65536x16, .f32⟩
  | .hbm, ⟨21, _⟩ => ⟨S65536x4, .f32⟩
  | .hbm, ⟨22, _⟩ => ⟨S4x65536, .f32⟩
  | .hbm, ⟨23, _⟩ => ⟨S65536x1, .i32⟩
  | .hbm, ⟨24, _⟩ => ⟨S65536, .i32⟩
  | .hbm, ⟨25, _⟩ => ⟨S65536x1, .i32⟩
  | .hbm, ⟨26, _⟩ => ⟨S65536, .i32⟩
  | .hbm, ⟨27, _⟩ => ⟨S_, .i32⟩
  | .hbm, ⟨28, _⟩ => ⟨S65536, .i32⟩
  | .hbm, ⟨29, _⟩ => ⟨S65536, .i1⟩
  | .hbm, ⟨30, _⟩ => ⟨S_, .i32⟩
  | .hbm, ⟨31, _⟩ => ⟨S65536, .i32⟩
  | .hbm, ⟨32, _⟩ => ⟨S65536, .i32⟩
  | .hbm, ⟨33, _⟩ => ⟨S65536, .i32⟩
  | .hbm, ⟨34, _⟩ => ⟨S65536x1, .i32⟩
  | .hbm, ⟨35, _⟩ => ⟨S512x65536, .f32⟩
  | .hbm, ⟨36, _⟩ => ⟨S_, .i32⟩
  | .hbm, ⟨37, _⟩ => ⟨S65536, .i32⟩
  | .hbm, ⟨38, _⟩ => ⟨S65536, .i1⟩
  | .hbm, ⟨39, _⟩ => ⟨S_, .i32⟩
  | .hbm, ⟨40, _⟩ => ⟨S65536, .i32⟩
  | .hbm, ⟨41, _⟩ => ⟨S65536, .i32⟩
  | .hbm, ⟨42, _⟩ => ⟨S65536, .i32⟩
  | .hbm, ⟨43, _⟩ => ⟨S65536x1, .i32⟩
  | .hbm, ⟨44, _⟩ => ⟨S512x65536, .f32⟩
  | .hbm, ⟨45, _⟩ => ⟨S512x65536, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S4x2048, .f32⟩
  | .local _ .vmem, ⟨5, _⟩ => ⟨S4x2048, .f32⟩
  | .local _ .vmem, ⟨6, _⟩ => ⟨S512x2048, .f32⟩
  | .local _ .vmem, ⟨7, _⟩ => ⟨S512x2048, .f32⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_5 : Ref sig .tc := ⟨.hbm, 36, rfl⟩
abbrev main_v26 : Ref sig .tc := ⟨.hbm, 37, rfl⟩
abbrev main_v27 : Ref sig .tc := ⟨.hbm, 38, rfl⟩
abbrev main_c_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S65536x16 : S_.BroadcastsInDim S65536x16 (![] : Fin 0 → Fin S65536x16.rank)
  reducesTo_S65536x16_S65536_d1 : S65536x16.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x16_0_1 : S65536x1.BroadcastsInDim S65536x16 (![0, 1] : Fin 2 → Fin S65536x16.rank)
  transposes_S65536x4_S4x65536_1_0 : S65536x4.Transposes [1, 0] S4x65536
  slices_S65536x2_S65536x1_0_0 : S65536x2.Slices ![0, 0] S65536x1
  shapeCasts_S65536x1_S65536 : S65536x1.ShapeCasts S65536
  slices_S65536x2_S65536x1_0_1 : S65536x2.Slices ![0, 1] S65536x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S4x2048_S1x2048_0_0 : ∀ a, (![0, 0] : Fin 2 → Nat) a + S1x2048.size a ≤ S4x2048.size a
  h_S1x2048 : 0 < S1x2048.numel
  shapeCasts_S1x2048_S1x2048 : S1x2048.ShapeCasts S1x2048
  inb_S4x2048_S1x2048_1_0 : ∀ a, (![1, 0] : Fin 2 → Nat) a + S1x2048.size a ≤ S4x2048.size a
  inb_S4x2048_S1x2048_2_0 : ∀ a, (![2, 0] : Fin 2 → Nat) a + S1x2048.size a ≤ S4x2048.size a
  inb_S4x2048_S1x2048_3_0 : ∀ a, (![3, 0] : Fin 2 → Nat) a + S1x2048.size a ≤ S4x2048.size a
  broadcasts_S1x2048_S512x2048 : S1x2048.Broadcasts S512x2048
  dot_S65536x16_S16x4_S65536x4_1_0_0_1_n_n_wf : DotDims.WF S65536x16 S16x4 S65536x4 [1] [0] [0] [1] [] []
  gather_S512x8192_S65536x1_S512x65536_0_1_n_n_1_1_5121_wf : GatherDims.WF S512x8192 S65536x1 S512x65536 [0] [1] [] [1] [] 1 ![512, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x65536.size a
  hwx0_0 : ∀ i : grid0.Coords, EltTy.bits .f32 = 32 ∨ (Rect.block (s := S512x65536) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x65536.size a
  hwx0_1 : ∀ i : grid0.Coords, EltTy.bits .f32 = 32 ∨ (Rect.block (s := S512x65536) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x2048.size a ≤ S4x65536.size a
  hwx0_2 : ∀ i : grid0.Coords, EltTy.bits .f32 = 32 ∨ (Rect.block (s := S4x65536) S4x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x65536.size a
  hwx0_3 : ∀ i : grid0.Coords, EltTy.bits .f32 = 32 ∨ (Rect.block (s := S512x65536) S512x2048.size (cc0_transform_3 i) (hinb0_3 i)).WholeWords (EltTy.packing .f32)

variable [Facts₀]

def dot_S65536x16_S16x4_S65536x4_1_0_0_1_n_n : DotDims S65536x16 S16x4 S65536x4 where
  lhsContracting := [1]
  rhsContracting := [0]
  lhsNonContracting := [0]
  rhsNonContracting := [1]
  lhsBatch := []
  rhsBatch := []
  wf := dot_S65536x16_S16x4_S65536x4_1_0_0_1_n_n_wf
def gather_S512x8192_S65536x1_S512x65536_0_1_n_n_1_1_5121 : GatherDims S512x8192 S65536x1 S512x65536 where
  offsetDims := [0]
  collapsedSliceDims := [1]
  operandBatchingDims := []
  startIndicesBatchingDims := []
  startIndexMap := [1]
  indexVectorDim := 1
  sliceSizes := ![512, 1]
  wf := gather_S512x8192_S65536x1_S512x65536_0_1_n_n_1_1_5121_wf

abbrev win0_0 : Pipeline.Window sig grid0 :=
  Pipeline.Window.ofSpec (Memref.whole main_v25) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x8192 : Shape := ⟨2, ![512, 8192]⟩
abbrev S65536x16 : Shape := ⟨2, ![65536, 16]⟩
abbrev S65536x2 : Shape := ⟨2, ![65536, 2]⟩
abbrev S16x4 : Shape := ⟨2, ![16, 4]⟩
abbrev S_ : Shape := ⟨0, ![]⟩
abbrev S65536 : Shape := ⟨1, ![65536]⟩
abbrev S65536x1 : Shape := ⟨2, ![65536, 1]⟩
abbrev S65536x4 : Shape := ⟨2, ![65536, 4]⟩
abbrev S512x65536 : Shape := ⟨2, ![512, 65536]⟩
abbrev S1x65536 : Shape := ⟨2, ![1, 65536]⟩

abbrev nBuf : Space → Nat
  | .hbm => 67
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S65536x16, .f32⟩
  | .hbm, ⟨2, _⟩ => ⟨S65536x2, .i32⟩
  | .hbm, ⟨3, _⟩ => ⟨S16x4, .f32⟩
  | .hbm, ⟨4, _⟩ => ⟨S_, .f32⟩
  | .hbm, ⟨5, _⟩ => ⟨S65536x16, .f32⟩
  | .hbm, ⟨6, _⟩ => ⟨S65536x16, .f32⟩
  | .hbm, ⟨7, _⟩ => ⟨S_, .f32⟩
  | .hbm, ⟨8, _⟩ => ⟨S65536, .f32⟩
  | .hbm, ⟨9, _⟩ => ⟨S_, .f32⟩
  | .hbm, ⟨10, _⟩ => ⟨S65536, .f32⟩
  | .hbm, ⟨11, _⟩ => ⟨S65536, .f32⟩
  | .hbm, ⟨12, _⟩ => ⟨S65536x1, .f32⟩
  | .hbm, ⟨13, _⟩ => ⟨S65536x16, .f32⟩
  | .hbm, ⟨14, _⟩ => ⟨S65536x16, .f32⟩
  | .hbm, ⟨15, _⟩ => ⟨S65536x16, .f32⟩
  | .hbm, ⟨16, _⟩ => ⟨S_, .f32⟩
  | .hbm, ⟨17, _⟩ => ⟨S65536, .f32⟩
  | .hbm, ⟨18, _⟩ => ⟨S65536x1, .f32⟩
  | .hbm, ⟨19, _⟩ => ⟨S65536x16, .f32⟩
  | .hbm, ⟨20, _⟩ => ⟨S65536x16, .f32⟩
  | .hbm, ⟨21, _⟩ => ⟨S65536x4, .f32⟩
  | .hbm, ⟨22, _⟩ => ⟨S65536x1, .i32⟩
  | .hbm, ⟨23, _⟩ => ⟨S65536, .i32⟩
  | .hbm, ⟨24, _⟩ => ⟨S_, .i32⟩
  | .hbm, ⟨25, _⟩ => ⟨S65536, .i32⟩
  | .hbm, ⟨26, _⟩ => ⟨S65536, .i1⟩
  | .hbm, ⟨27, _⟩ => ⟨S_, .i32⟩
  | .hbm, ⟨28, _⟩ => ⟨S65536, .i32⟩
  | .hbm, ⟨29, _⟩ => ⟨S65536, .i32⟩
  | .hbm, ⟨30, _⟩ => ⟨S65536, .i32⟩
  | .hbm, ⟨31, _⟩ => ⟨S65536x1, .i32⟩
  | .hbm, ⟨32, _⟩ => ⟨S512x65536, .f32⟩
  | .hbm, ⟨33, _⟩ => ⟨S65536x1, .i32⟩
  | .hbm, ⟨34, _⟩ => ⟨S65536, .i32⟩
  | .hbm, ⟨35, _⟩ => ⟨S_, .i32⟩
  | .hbm, ⟨36, _⟩ => ⟨S65536, .i32⟩
  | .hbm, ⟨37, _⟩ => ⟨S65536, .i1⟩
  | .hbm, ⟨38, _⟩ => ⟨S_, .i32⟩
  | .hbm, ⟨39, _⟩ => ⟨S65536, .i32⟩
  | .hbm, ⟨40, _⟩ => ⟨S65536, .i32⟩
  | .hbm, ⟨41, _⟩ => ⟨S65536, .i32⟩
  | .hbm, ⟨42, _⟩ => ⟨S65536x1, .i32⟩
  | .hbm, ⟨43, _⟩ => ⟨S512x65536, .f32⟩
  | .hbm, ⟨44, _⟩ => ⟨S65536x1, .f32⟩
  | .hbm, ⟨45, _⟩ => ⟨S65536, .f32⟩
  | .hbm, ⟨46, _⟩ => ⟨S65536x1, .f32⟩
  | .hbm, ⟨47, _⟩ => ⟨S65536, .f32⟩
  | .hbm, ⟨48, _⟩ => ⟨S1x65536, .f32⟩
  | .hbm, ⟨49, _⟩ => ⟨S512x65536, .f32⟩
  | .hbm, ⟨50, _⟩ => ⟨S512x65536, .f32⟩
  | .hbm, ⟨51, _⟩ => ⟨S1x65536, .f32⟩
  | .hbm, ⟨52, _⟩ => ⟨S512x65536, .f32⟩
  | .hbm, ⟨53, _⟩ => ⟨S512x65536, .f32⟩
  | .hbm, ⟨54, _⟩ => ⟨S65536x1, .f32⟩
  | .hbm, ⟨55, _⟩ => ⟨S65536, .f32⟩
  | .hbm, ⟨56, _⟩ => ⟨S1x65536, .f32⟩
  | .hbm, ⟨57, _⟩ => ⟨S512x65536, .f32⟩
  | .hbm, ⟨58, _⟩ => ⟨S512x65536, .f32⟩
  | .hbm, ⟨59, _⟩ => ⟨S512x65536, .f32⟩
  | .hbm, ⟨60, _⟩ => ⟨S65536x1, .f32⟩
  | .hbm, ⟨61, _⟩ => ⟨S65536, .f32⟩
  | .hbm, ⟨62, _⟩ => ⟨S512x65536, .f32⟩
  | .hbm, ⟨63, _⟩ => ⟨S1x65536, .f32⟩
  | .hbm, ⟨64, _⟩ => ⟨S512x65536, .f32⟩
  | .hbm, ⟨65, _⟩ => ⟨S512x65536, .f32⟩
  | .hbm, ⟨66, _⟩ => ⟨S512x65536, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]

class Facts₀ : Prop where
  bcast_S_S65536x16 : S_.BroadcastsInDim S65536x16 (![] : Fin 0 → Fin S65536x16.rank)
  reducesTo_S65536x16_S65536_d1 : S65536x16.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x16_0_1 : S65536x1.BroadcastsInDim S65536x16 (![0, 1] : Fin 2 → Fin S65536x16.rank)
  slices_S65536x2_S65536x1_0_0 : S65536x2.Slices ![0, 0] S65536x1
  shapeCasts_S65536x1_S65536 : S65536x1.ShapeCasts S65536
  slices_S65536x2_S65536x1_0_1 : S65536x2.Slices ![0, 1] S65536x1
  slices_S65536x4_S65536x1_0_0 : S65536x4.Slices ![0, 0] S65536x1
  slices_S65536x4_S65536x1_0_1 : S65536x4.Slices ![0, 1] S65536x1
  bcast_S65536_S1x65536_1 : S65536.BroadcastsInDim S1x65536 (![1] : Fin 1 → Fin S1x65536.rank)
  bcast_S1x65536_S512x65536_0_1 : S1x65536.BroadcastsInDim S512x65536 (![0, 1] : Fin 2 → Fin S512x65536.rank)
  slices_S65536x4_S65536x1_0_2 : S65536x4.Slices ![0, 2] S65536x1
  slices_S65536x4_S65536x1_0_3 : S65536x4.Slices ![0, 3] S65536x1
  dot_S65536x16_S16x4_S65536x4_1_0_0_1_n_n_wf : DotDims.WF S65536x16 S16x4 S65536x4 [1] [0] [0] [1] [] []
  gather_S512x8192_S65536x1_S512x65536_0_1_n_n_1_1_5121_wf : GatherDims.WF S512x8192 S65536x1 S512x65536 [0] [1] [] [1] [] 1 ![512, 1]

variable [Facts₀]

def dot_S65536x16_S16x4_S65536x4_1_0_0_1_n_n : DotDims S65536x16 S16x4 S65536x4 where
  lhsContracting := [1]
  rhsContracting := [0]
  lhsNonContracting := [0]
  rhsNonContracting := [1]
  lhsBatch := []
  rhsBatch := []
  wf := dot_S65536x16_S16x4_S65536x4_1_0_0_1_n_n_wf
def gather_S512x8192_S65536x1_S512x65536_0_1_n_n_1_1_5121 : GatherDims S512x8192 S65536x1 S512x65536 where
  offsetDims := [0]
  collapsedSliceDims := [1]
  operandBatchingDims := []
  startIndicesBatchingDims := []
  startIndexMap := [1]
  indexVectorDim := 1
  sliceSizes := ![512, 1]
  wf := gather_S512x8192_S65536x1_S512x65536_0_1_n_n_1_1_5121_wf

class Facts : Prop extends Facts₀ where

variable [Facts]
-- ==== Proof.Combine.lean ====
/-
  The affine combine of a logic layer, as one function of three arrays, and a column read along rows.

  Every output neuron j mixes its two gathered inputs a = A[i, j] and b = B[i, j] with four coefficients of its own,
  the row K[j, ·] of a 65536 x 4 array:

      out[i, j] = ((K[j,0] + K[j,1] · a) + K[j,2] · b) + K[j,3] · (a · b)

  on the extended reals, with exactly this grouping.  Both programs compute this expression tree; they differ only in
  how the coefficient K[j, c] reaches position (i, j): the reference slices column c of K, drops its unit axis and
  broadcasts it along the 512 rows, while the kernel transposes K and reads row c of the transposed array block by
  block.  The grouping is the same on both sides, so no law of arithmetic is used — in particular none that would
  need the entries to be finite.
-/
import Idealize.ShloMosaic.PureOps.Ideal
import Idealize.ShloMosaic.Lib.ValueIdx
import Idealize.ShloMosaic.Lib.ValueLayout
import Idealize.ShloMosaic.Lib.Pipeline.Value

noncomputable section

namespace Cert.LogicLayer

open Idealize.ShloMosaic Idealize.ShloMosaic.ValueIdx

/-- The combine: entry (i, j) from row j of the coefficients and the two gathered values at (i, j). -/
def combine (K : FVec Ideal ⟨2, ![65536, 4]⟩ .f32) (A B : FVec Ideal ⟨2, ![512, 65536]⟩ .f32) :
    FVec Ideal ⟨2, ![512, 65536]⟩ .f32 := fun i =>
  ((K (ix2 (⟨(i 1).val, idx2_lt1 i⟩ : Fin 65536) (0 : Fin 4))
      + K (ix2 (⟨(i 1).val, idx2_lt1 i⟩ : Fin 65536) (1 : Fin 4)) * A i)
      + K (ix2 (⟨(i 1).val, idx2_lt1 i⟩ : Fin 65536) (2 : Fin 4)) * B i)
      + K (ix2 (⟨(i 1).val, idx2_lt1 i⟩ : Fin 65536) (3 : Fin 4)) * (A i * B i)

/-- The combine at explicit coordinates. -/
theorem combine_apply (K : FVec Ideal ⟨2, ![65536, 4]⟩ .f32) (A B : FVec Ideal ⟨2, ![512, 65536]⟩ .f32)
    (p : Fin 512) (q : Fin 65536) :
    combine K A B (ix2 p q)
      = ((K (ix2 q (0 : Fin 4)) + K (ix2 q (1 : Fin 4)) * A (ix2 p q)) + K (ix2 q (2 : Fin 4)) * B (ix2 p q))
          + K (ix2 q (3 : Fin 4)) * (A (ix2 p q) * B (ix2 p q)) := rfl

section ColumnAlongRows
variable {α : Type}

/-- Column c of a 65536 x 4 array — sliced out as a 65536 x 1 array, its unit axis dropped, laid as one row of
    65536 and that row repeated 512 times — reads at (p, q) the array's entry (q, c).  The slice's offsets and the
    two broadcasts' axis maps are variables with their values as hypotheses, so that the printed spellings match. -/
theorem column_along_rows (off : Fin 2 → Nat) (c : Fin 4) (h0 : off 0 = 0) (h1 : off 1 = c.val)
    (K : (⟨2, ![65536, 4]⟩ : Shape).Idx → α)
    (hs : (⟨2, ![65536, 4]⟩ : Shape).Slices off ⟨2, ![65536, 1]⟩)
    (hc : (⟨2, ![65536, 1]⟩ : Shape).ShapeCasts ⟨1, ![65536]⟩)
    (d1 : Fin 1 → Fin 2) (hd1 : d1 0 = 1)
    (hb1 : (⟨1, ![65536]⟩ : Shape).BroadcastsInDim ⟨2, ![1, 65536]⟩ d1)
    (d2 : Fin 2 → Fin 2) (hd21 : d2 1 = 1)
    (hb2 : (⟨2, ![1, 65536]⟩ : Shape).BroadcastsInDim ⟨2, ![512, 65536]⟩ d2)
    (p : Fin 512) (q : Fin 65536) :
    broadcastInDim ⟨2, ![512, 65536]⟩ d2 hb2
        (broadcastInDim ⟨2, ![1, 65536]⟩ d1 hb1
          (shapeCast ⟨1, ![65536]⟩ (extractStridedSlice ⟨2, ![65536, 1]⟩ off K hs) hc)) (ix2 p q)
      = K (ix2 q c) := by
  refine (broadcastInDim_apply d2 hb2 _ (ix2 p q) (ix2 (0 : Fin 1) q) (fun a => ?_)).trans ?_
  · match a with
    | ⟨0, _⟩ => show (0 : ℕ) = if (1 : ℕ) = 1 then 0 else ((ix2 p q) (d2 0)).val; rw [if_pos rfl]
    | ⟨1, _⟩ =>
      show q.val = if (65536 : ℕ) = 1 then 0 else ((ix2 p q) (d2 1)).val
      rw [if_neg (by decide), hd21]
  refine (broadcastInDim_apply d1 hb1 _ (ix2 (0 : Fin 1) q) (ix1 q) (fun a => ?_)).trans ?_
  · match a with
    | ⟨0, _⟩ =>
      show q.val = if (65536 : ℕ) = 1 then 0 else ((ix2 (0 : Fin 1) q) (d1 0)).val
      rw [if_neg (by decide), hd1]
  refine (shapeCast_apply _ hc (ix1 q) (ix2 q (0 : Fin 1)) ?_).trans ?_
  · rw [Shape.rowMajor_val_two, Shape.rowMajor_val_one]
    show q.val * 1 + 0 = q.val
    omega
  refine extractStridedSlice_apply off K hs (ix2 q (0 : Fin 1)) (ix2 q c) (fun a => ?_)
  match a with
  | ⟨0, _⟩ => show q.val = off 0 + q.val; rw [h0]; omega
  | ⟨1, _⟩ => show c.val = off 1 + 0; rw [h1]; omega

end ColumnAlongRows

end Cert.LogicLayer

end
-- ==== Proof.LibStraightLine.lean ====
/-
  Reading a straight line of host operations one operation at a time.

  A host program printed as a list of operations is in single-assignment form: every operation writes exactly one buffer,
  and no two write the same one.  Then the fold of the whole list, read at the buffer operation `k` writes, is that
  operation's function applied to the fold of the WHOLE list read at its operands — nothing after position `k` writes
  the result, and nothing from position `k` on writes an operand.  All side conditions are memberships in lists of
  references, which are decidable; the operations themselves are never inspected beyond their `writes`.

  Use: list the references the line's operations write, in order (`outs`); prove `WritesAre ops outs` once (each entry
  holds by `rfl`: `unfold WritesAre; repeat' constructor`); then for the operation at position `k` apply the lemma of its
  kind at `ops.take k` and `ops.drop (k + 1)`, with `(writesAre.drop k)` and the memberships by `decide`.
-/
import Idealize.ShloMosaic.Lib.StableHlo.Run

noncomputable section

namespace Idealize.ShloMosaic.StableHlo.StraightLine

open Idealize.ShloMosaic Idealize.ShloMosaic.StableHlo

variable {τ : Topo} {sig : RefSig} {Val : EltTy → Type}

/-- A line of operations run in two stretches. -/
theorem after_append (a b : List (HloOp τ sig Val)) (V : Valuation τ sig Val) :
    after (a ++ b) V = after b (after a V) := by
  induction a generalizing V with
  | nil => rfl
  | cons op a ih => exact ih _

/-- Operation by operation, `ops` writes exactly the buffers of the references `outs`. -/
def WritesAre (ops : List (HloOp τ sig Val)) (outs : List (Ref sig .tc)) : Prop :=
  List.Forall₂ (fun op r => op.writes = {Proc.devRef (τ := τ) .tc r}) ops outs

/-- A reference that is none of `outs` is written by no operation of the line. -/
theorem not_written {ops : List (HloOp τ sig Val)} {outs : List (Ref sig .tc)} (h : WritesAre ops outs)
    {b : Ref sig .tc} (hb : b ∉ outs) : ∀ op ∈ ops, Proc.devRef (τ := τ) .tc b ∉ op.writes := by
  induction h with
  | nil => intro op ho; cases ho
  | @cons op r ops outs hw _ ih =>
    intro o ho
    rcases List.mem_cons.mp ho with rfl | ho
    · rw [hw, Finset.mem_singleton]
      exact devRef_ne_of_ne fun e => hb (e ▸ List.mem_cons_self)
    · exact ih (fun hm => hb (List.mem_cons_of_mem _ hm)) o ho

/-- So the line leaves it as it was. -/
theorem after_kept {ops : List (HloOp τ sig Val)} {outs : List (Ref sig .tc)} (h : WritesAre ops outs)
    {b : Ref sig .tc} (hb : b ∉ outs) (V : Valuation τ sig Val) :
    after ops V (Proc.devRef .tc b) = V (Proc.devRef .tc b) :=
  after_of_forall_not_mem ops V (not_written h hb)

/-- The stretch after a position writes the references listed after it. -/
theorem WritesAre.drop {ops : List (HloOp τ sig Val)} {outs : List (Ref sig .tc)} (h : WritesAre ops outs) (k : Nat) :
    WritesAre (ops.drop k) (outs.drop k) := List.forall₂_drop k h

/-- THE READING LEMMA.  With the line cut at one operation, `ops = pre ++ op :: post`: a buffer `b` that `post` does not
    write holds after the whole line what `op` leaves in it after `pre`. -/
theorem after_cut (pre post : List (HloOp τ sig Val)) (op : HloOp τ sig Val) (V : Valuation τ sig Val) (b : DevRef τ sig)
    (hpost : ∀ o ∈ post, b ∉ o.writes) :
    after (pre ++ op :: post) V b = op.result (after pre V) b := by
  rw [after_append, after_cons, after_of_forall_not_mem post _ hpost]

/-- An operand of the operation at the cut — a reference neither the operation nor anything after it writes — holds
    after the whole line what it held after `pre`. -/
theorem after_cut_operand (pre post : List (HloOp τ sig Val)) (op : HloOp τ sig Val) (V : Valuation τ sig Val)
    {outs : List (Ref sig .tc)} (h : WritesAre (op :: post) outs) {x : Ref sig .tc} (hx : x ∉ outs) :
    after (pre ++ op :: post) V (Proc.devRef .tc x) = after pre V (Proc.devRef .tc x) := by
  rw [after_append]
  exact after_kept h hx _

/-- A one-operand operation at the cut: its result buffer holds its function of what the WHOLE line leaves in its
    operand. `outs` lists what the operation and everything after it write; the result is its head. -/
theorem unary_at (pre post : List (HloOp τ sig Val)) (x y : Ref sig .tc) (f : x.ty.Contents Val → y.ty.Contents Val) (hx hy)
    (V : Valuation τ sig Val) {outs : List (Ref sig .tc)} (h : WritesAre (unary (τ := τ) x y f hx hy :: post) (y :: outs))
    (hyo : y ∉ outs) (hxo : x ∉ y :: outs) :
    after (pre ++ unary x y f hx hy :: post) V (Proc.devRef .tc y)
      = f (after (pre ++ unary x y f hx hy :: post) V (Proc.devRef .tc x)) := by
  have hpost : WritesAre post outs := by cases h with | cons _ h' => exact h'
  rw [after_cut pre post _ V _ (not_written hpost hyo), unary_result, after_cut_operand pre post _ V h hxo]

/-- A two-operand operation at the cut. -/
theorem binary_at (pre post : List (HloOp τ sig Val)) (a b y : Ref sig .tc)
    (f : a.ty.Contents Val → b.ty.Contents Val → y.ty.Contents Val) (ha hb hy)
    (V : Valuation τ sig Val) {outs : List (Ref sig .tc)} (h : WritesAre (binary (τ := τ) a b y f ha hb hy :: post) (y :: outs))
    (hyo : y ∉ outs) (hao : a ∉ y :: outs) (hbo : b ∉ y :: outs) :
    after (pre ++ binary a b y f ha hb hy :: post) V (Proc.devRef .tc y)
      = f (after (pre ++ binary a b y f ha hb hy :: post) V (Proc.devRef .tc a))
          (after (pre ++ binary a b y f ha hb hy :: post) V (Proc.devRef .tc b)) := by
  have hpost : WritesAre post outs := by cases h with | cons _ h' => exact h'
  rw [after_cut pre post _ V _ (not_written hpost hyo), binary_result, after_cut_operand pre post _ V h hao,
    after_cut_operand pre post _ V h hbo]

/-- An operation with no operand at the cut. -/
theorem nullary_at (pre post : List (HloOp τ sig Val)) (y : Ref sig .tc) (v : y.ty.Contents Val) (hy)
    (V : Valuation τ sig Val) {outs : List (Ref sig .tc)} (h : WritesAre (nullary (τ := τ) y v hy :: post) (y :: outs))
    (hyo : y ∉ outs) :
    after (pre ++ nullary y v hy :: post) V (Proc.devRef .tc y) = v := by
  have hpost : WritesAre post outs := by cases h with | cons _ h' => exact h'
  rw [after_cut pre post _ V _ (not_written hpost hyo), nullary_result]

/-- A three-operand operation at the cut (a `select`, a `clamp`). -/
theorem ternary_at (pre post : List (HloOp τ sig Val)) (c a b y : Ref sig .tc)
    (f : c.ty.Contents Val → a.ty.Contents Val → b.ty.Contents Val → y.ty.Contents Val) (hc ha hb hy)
    (V : Valuation τ sig Val) {outs : List (Ref sig .tc)} (h : WritesAre (ternary (τ := τ) c a b y f hc ha hb hy :: post) (y :: outs))
    (hyo : y ∉ outs) (hco : c ∉ y :: outs) (hao : a ∉ y :: outs) (hbo : b ∉ y :: outs) :
    after (pre ++ ternary c a b y f hc ha hb hy :: post) V (Proc.devRef .tc y)
      = f (after (pre ++ ternary c a b y f hc ha hb hy :: post) V (Proc.devRef .tc c))
          (after (pre ++ ternary c a b y f hc ha hb hy :: post) V (Proc.devRef .tc a))
          (after (pre ++ ternary c a b y f hc ha hb hy :: post) V (Proc.devRef .tc b)) := by
  have hpost : WritesAre post outs := by cases h with | cons _ h' => exact h'
  rw [after_cut pre post _ V _ (not_written hpost hyo), ternary_result, after_cut_operand pre post _ V h hco,
    after_cut_operand pre post _ V h hao, after_cut_operand pre post _ V h hbo]

/-- A reshape at the cut: the operand's elements in row-major order at the result's shape. -/
theorem reshape_at (pre post : List (HloOp τ sig Val)) (x y : Ref sig .tc) (he : x.ty.elt = y.ty.elt)
    (hn : x.ty.shape.ShapeCasts y.ty.shape) (hx hy)
    (V : Valuation τ sig Val) {outs : List (Ref sig .tc)} (h : WritesAre (reshape (τ := τ) (Val := Val) x y he hn hx hy :: post) (y :: outs))
    (hyo : y ∉ outs) (hxo : x ∉ y :: outs) :
    after (pre ++ reshape x y he hn hx hy :: post) V (Proc.devRef .tc y)
      = fun i => he ▸ shapeCast y.ty.shape (after (pre ++ reshape x y he hn hx hy :: post) V (Proc.devRef .tc x)) hn i := by
  have hpost : WritesAre post outs := by cases h with | cons _ h' => exact h'
  rw [after_cut pre post _ V _ (not_written hpost hyo), reshape_result, after_cut_operand pre post _ V h hxo]

/-- An operation of any number of operands at the cut (a concatenation): its function of what the WHOLE line leaves in
    each operand. -/
theorem nary_at {n : Nat} (pre post : List (HloOp τ sig Val)) (xs : Fin n → Ref sig .tc) (y : Ref sig .tc)
    (f : ((k : Fin n) → (xs k).ty.Contents Val) → y.ty.Contents Val) (hxs hy)
    (V : Valuation τ sig Val) {outs : List (Ref sig .tc)} (h : WritesAre (nary (τ := τ) xs y f hxs hy :: post) (y :: outs))
    (hyo : y ∉ outs) (hxo : ∀ k, xs k ∉ y :: outs) :
    after (pre ++ nary xs y f hxs hy :: post) V (Proc.devRef .tc y)
      = f (fun k => after (pre ++ nary xs y f hxs hy :: post) V (Proc.devRef .tc (xs k))) := by
  have hpost : WritesAre post outs := by cases h with | cons _ h' => exact h'
  rw [after_cut pre post _ V _ (not_written hpost hyo), nary_result]
  congr 1
  funext k
  exact (after_cut_operand pre post _ V h (hxo k)).symm

/-- The line cut at a position: a reference written by none of the operations from position `k` on holds after the whole
    line what it holds after the first `k`. -/
theorem after_take {ops : List (HloOp τ sig Val)} {outs : List (Ref sig .tc)} (h : WritesAre ops outs) (k : Nat)
    {b : Ref sig .tc} (hb : b ∉ outs.drop k) (V : Valuation τ sig Val) :
    after ops V (Proc.devRef .tc b) = after (ops.take k) V (Proc.devRef .tc b) := by
  have e : after ops V = after (ops.drop k) (after (ops.take k) V) := by
    rw [← after_append, List.take_append_drop]
  rw [e]
  exact after_kept (h.drop k) hb _

/-- An argument of the program — a reference no operation writes — holds after the whole line what it held before. -/
theorem argument_kept {ops : List (HloOp τ sig Val)} {outs : List (Ref sig .tc)} (h : WritesAre ops outs)
    {b : Ref sig .tc} (hb : b ∉ outs) (V : Valuation τ sig Val) :
    after ops V (Proc.devRef .tc b) = V (Proc.devRef .tc b) := after_kept h hb V

end Idealize.ShloMosaic.StableHlo.StraightLine

end
-- ==== Proof.KernelArray.lean ====
/-
  The kernel's output array is the combine of the three arrays it was launched on.

  The kernel runs over 32 grid points.  Point t loads block t — 2048 consecutive columns — of the two gathered arrays
  A and B (all 512 rows) and of the transposed coefficient array (all 4 rows), and stores one 512 x 2048 block: at
  (r, s) the value ((k0 + k1 · a) + k2 · b) + k3 · (a · b), with a, b the loaded entries at (r, s) and k0 … k3 the
  four loaded coefficient rows at column s.  Entry (r, s) of block t sits at column 2048 t + s of the arrays, and row
  k of the transposed coefficients at column q is K[q, k]; so what point t writes back is block t of the combine of
  K, A and B.  Column j belongs to block j / 2048 and each block holds every row, so the blocks tile the output and
  the whole output array is the combine.
-/
import proofs.«101925_j79259326480585_2_alg».proof.Proof.Gen.KernelIdeal.Value
import proofs.«101925_j79259326480585_2_alg».proof.Proof.Combine
import proofs.«101925_j79259326480585_2_alg».proof.Proof.LibStraightLine

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.LogicLayer
open Idealize.ShloMosaic.StableHlo.StraightLine

/-- One entry of the block a grid point leaves, from the three blocks it loaded. -/
theorem block_entry (x0 x1 : Vec Ideal S512x2048 .f32) (x2 : Vec Ideal S4x2048 .f32) (r : Fin 512) (s : Fin 2048) :
    out0_3 x0 x1 x2 (ix2 r s)
      = ((x2 (ix2 (0 : Fin 4) s) + x2 (ix2 (1 : Fin 4) s) * x0 (ix2 r s)) + x2 (ix2 (2 : Fin 4) s) * x1 (ix2 r s))
          + x2 (ix2 (3 : Fin 4) s) * (x0 (ix2 r s) * x1 (ix2 r s)) := by
  unfold out0_3
  rw [Value.canon3_eq]
  have l0 : View.ld x2 r0_1 (Value.ix3_0 (ix2 r s)) = x2 (ix2 (0 : Fin 4) s) :=
    congrArg x2 (funext fun a => Fin.ext (by
      match a with
      | ⟨0, _⟩ => show 0 + 1 * 0 = 0; omega
      | ⟨1, _⟩ => show 0 + 1 * s.val = s.val; omega))
  have l1 : View.ld x2 r0_2 (Value.ix3_1 (ix2 r s)) = x2 (ix2 (1 : Fin 4) s) :=
    congrArg x2 (funext fun a => Fin.ext (by
      match a with
      | ⟨0, _⟩ => show 1 + 1 * 0 = 1; omega
      | ⟨1, _⟩ => show 0 + 1 * s.val = s.val; omega))
  have l3 : View.ld x2 r0_3 (Value.ix3_3 (ix2 r s)) = x2 (ix2 (2 : Fin 4) s) :=
    congrArg x2 (funext fun a => Fin.ext (by
      match a with
      | ⟨0, _⟩ => show 2 + 1 * 0 = 2; omega
      | ⟨1, _⟩ => show 0 + 1 * s.val = s.val; omega))
  have l5 : View.ld x2 r0_4 (Value.ix3_5 (ix2 r s)) = x2 (ix2 (3 : Fin 4) s) :=
    congrArg x2 (funext fun a => Fin.ext (by
      match a with
      | ⟨0, _⟩ => show 3 + 1 * 0 = 3; omega
      | ⟨1, _⟩ => show 0 + 1 * s.val = s.val; omega))
  have whole : ∀ (x : Vec Ideal S512x2048 .f32) (z : S512x2048.Idx), (z 0).val = r.val → (z 1).val = s.val →
      View.ld x r0_0 z = x (ix2 r s) := fun x z h0 h1 =>
    congrArg x (funext fun a => Fin.ext (by
      match a with
      | ⟨0, _⟩ => show 0 + 1 * (z 0).val = r.val; omega
      | ⟨1, _⟩ => show 0 + 1 * (z 1).val = s.val; omega))
  show ((View.ld x2 r0_1 (Value.ix3_0 (ix2 r s)) + View.ld x2 r0_2 (Value.ix3_1 (ix2 r s)) * View.ld x0 r0_0 (Value.ix3_2 (ix2 r s)))
        + View.ld x2 r0_3 (Value.ix3_3 (ix2 r s)) * View.ld x1 r0_0 (Value.ix3_4 (ix2 r s)))
        + View.ld x2 r0_4 (Value.ix3_5 (ix2 r s)) * (View.ld x0 r0_0 (Value.ix3_6 (ix2 r s)) * View.ld x1 r0_0 (Value.ix3_7 (ix2 r s))) = _
  rw [l0, l1, l3, l5, whole x0 _ rfl rfl, whole x1 _ rfl rfl]

/-! ## Where a point's blocks sit in the arrays -/

/-- The printed index maps, decided over the 32 grid points: every window's block starts at row 0, the three input
    windows move along the columns with the output window, and the output's column block is one of the 32. -/
theorem idx_facts : ∀ t : Fin cfg0.N,
    win0_0.index t (0 : Fin 2) = 0 ∧ win0_0.index t (1 : Fin 2) = win0_3.index t (1 : Fin 2)
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) = 0 ∧ win0_3.index t (1 : Fin 2) ≤ 31 :=
  (by decide +kernel : ∀ t : Fin grid0.N, _)

/-- Each of the 32 column blocks of the output is some point's. -/
theorem idx_onto : ∀ q : Fin 32, ∃ t : Fin cfg0.N, win0_3.index t (1 : Fin 2) = q.val :=
  (by decide +kernel : ∀ q : Fin 32, ∃ t : Fin grid0.N, win0_3.index t (1 : Fin 2) = q.val)

/-- The array column under entry `s` of point `t`'s blocks: 2048 columns per block. -/
def col (t : Fin cfg0.N) (s : Fin 2048) : Fin 65536 :=
  ⟨win0_3.index t (1 : Fin 2) * 2048 + s.val, by
    have h := (idx_facts t).2.2.2.2.2.2.2
    have hs := s.isLt
    omega⟩

section Reads

variable (m : (ℓ : Loc nD τ sig) → Buf (Elt Ideal) ℓ)

/-- The first window's block is read off the first gathered array: rows as they are, columns shifted to the block. -/
theorem read_a (c : Dev nD) (t : Fin cfg0.N) (r : Fin 512) (s : Fin 2048) :
    iblk m c 0 t (ix2 r s) = V m c main_v25 (ix2 r (col t s)) := by
  obtain ⟨e0, e1, -⟩ := idx_facts t
  show V m c main_v25 (((cfg0.win 0).blk t).view.emb (ix2 r s)) = _
  refine congrArg (V m c main_v25) (funext fun a => Fin.ext ?_)
  match a with
  | ⟨0, _⟩ => show win0_0.index t (0 : Fin 2) * 512 + 1 * r.val = r.val; omega
  | ⟨1, _⟩ => show win0_0.index t (1 : Fin 2) * 2048 + 1 * s.val = win0_3.index t (1 : Fin 2) * 2048 + s.val; omega

/-- The second window's block, off the second gathered array. -/
theorem read_b (c : Dev nD) (t : Fin cfg0.N) (r : Fin 512) (s : Fin 2048) :
    iblk m c 1 t (ix2 r s) = V m c main_v32 (ix2 r (col t s)) := by
  obtain ⟨-, -, e0, e1, -⟩ := idx_facts t
  show V m c main_v32 (((cfg0.win 1).blk t).view.emb (ix2 r s)) = _
  refine congrArg (V m c main_v32) (funext fun a => Fin.ext ?_)
  match a with
  | ⟨0, _⟩ => show win0_1.index t (0 : Fin 2) * 512 + 1 * r.val = r.val; omega
  | ⟨1, _⟩ => show win0_1.index t (1 : Fin 2) * 2048 + 1 * s.val = win0_3.index t (1 : Fin 2) * 2048 + s.val; omega

/-- The third window's block, off the transposed coefficients: all four rows, columns shifted to the block. -/
theorem read_kt (c : Dev nD) (t : Fin cfg0.N) (k : Fin 4) (s : Fin 2048) :
    iblk m c 2 t (ix2 k s) = V m c main_v14 (ix2 k (col t s)) := by
  obtain ⟨-, -, -, -, e0, e1, -⟩ := idx_facts t
  show V m c main_v14 (((cfg0.win 2).blk t).view.emb (ix2 k s)) = _
  refine congrArg (V m c main_v14) (funext fun a => Fin.ext ?_)
  match a with
  | ⟨0, _⟩ => show win0_2.index t (0 : Fin 2) * 4 + 1 * k.val = k.val; omega
  | ⟨1, _⟩ => show win0_2.index t (1 : Fin 2) * 2048 + 1 * s.val = win0_3.index t (1 : Fin 2) * 2048 + s.val; omega

/-- Where entry (r, s) of the output window's block sits in the output array. -/
theorem emb_out (t : Fin cfg0.N) (r : Fin 512) (s : Fin 2048) :
    ((cfg0.win 3).blk t).view.emb (ix2 r s) = ix2 r (col t s) := by
  obtain ⟨-, -, -, -, -, -, e0, -⟩ := idx_facts t
  refine funext fun a => Fin.ext ?_
  match a with
  | ⟨0, _⟩ => show win0_3.index t (0 : Fin 2) * 512 + 1 * r.val = r.val; omega
  | ⟨1, _⟩ => show win0_3.index t (1 : Fin 2) * 2048 + 1 * s.val = win0_3.index t (1 : Fin 2) * 2048 + s.val; omega

end Reads

/-! ## The transposed coefficients -/

/-- The buffer each of the 42 host operations before the kernel writes, in program order. -/
abbrev outs : List (Ref sig .tc) :=
  [main_cst, main_cst_0, main_v0, main_v1, main_cst_1, main_v2, main_cst_2, main_v3, main_v4, main_v5, main_v6, main_v7, main_v8, main_cst_3, main_v9, main_v10, main_v11, main_v12, main_v13, main_v14, main_v15, main_v16, main_v17, main_v18, main_c, main_v19, main_v20, main_c_4, main_v21, main_v22, main_v23, main_v24, main_v25, main_c_5, main_v26, main_v27, main_c_6, main_v28, main_v29, main_v30, main_v31, main_v32]

theorem writes {F : FTy → Type} [FloatOps F] : WritesAre (τ := τ) (hostOps0 (F := F)) outs := by
  unfold WritesAre; repeat' constructor

section Final

variable (m : (ℓ : Loc nD τ sig) → Buf (Elt Ideal) ℓ) (ρ : Dev nD → PrngReg)

/-- The kernel's third operand is the transpose of the coefficient array the host computed just before it. -/
theorem kt_eq (c : Dev nD) :
    V m c main_v14 = transpose S4x65536 [1, 0] (V m c main_v13) transposes_S65536x4_S4x65536_1_0 :=
  unary_at (hostOps0.take 19) (hostOps0.drop 20) main_v13 main_v14 _ _ _ (fun b => m (c, b)) (writes.drop 19)
    (by decide) (by decide)

/-- So row k of the operand at column q is the coefficient K[q, k]. -/
theorem kt_entry (c : Dev nD) (k : Fin 4) (q : Fin 65536) :
    V m c main_v14 (ix2 k q) = V m c main_v13 (ix2 q k) :=
  (congrFun (kt_eq m c) (ix2 k q)).trans (transpose_ix2_apply (V m c main_v13) transposes_S65536x4_S4x65536_1_0 k q)

/-! ## What a point writes back, and the whole array -/

/-- WHAT POINT `t` WRITES BACK is block `t` of the combine of the coefficients and the two gathered arrays. -/
theorem flushed_eq (c : Dev nD) (t : Fin cfg0.N) :
    (dats m 0 c).flushed 3 t = ((cfg0.win 3).blk t).view.read (Elt Ideal)
      (combine (V m c main_v13) (V m c main_v25) (V m c main_v32)) := by
  rw [Value.flushed3]
  funext y
  obtain ⟨r, s, rfl⟩ : ∃ (r : Fin 512) (s : Fin 2048), y = ix2 r s := ⟨y 0, y 1, eq_ix2 y⟩
  show out0_3 (iblk m c 0 t) (iblk m c 1 t) (iblk m c 2 t) (ix2 r s)
      = combine (V m c main_v13) (V m c main_v25) (V m c main_v32) (((cfg0.win 3).blk t).view.emb (ix2 r s))
  rw [emb_out t r s, combine_apply]
  refine (block_entry (iblk m c 0 t) (iblk m c 1 t) (iblk m c 2 t) r s).trans ?_
  rw [read_a m c t r s, read_b m c t r s, read_kt m c t 0 s, read_kt m c t 1 s, read_kt m c t 2 s, read_kt m c t 3 s,
    kt_entry m c 0, kt_entry m c 1, kt_entry m c 2, kt_entry m c 3]

/-- An index of the output array is in point `t`'s block iff each coordinate is in the block's range on its axis. -/
theorem mem_blk (t : Fin cfg0.N) (i : S512x65536.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v33).slice (win0_3.rect t)).set ↔ _
  rw [View.set_slice_whole, Rect.mem_set_unit]
  exact Iff.rfl

/-- The 32 blocks tile the output: column j lies in block j / 2048, and every block holds all 512 rows. -/
theorem cover (i : S512x65536.Idx) :
    ∃ t : Fin cfg0.N, (cfg0.win 3).flush t = true ∧ i ∈ ((cfg0.win 3).blk t).view.set := by
  have hi0 : (i 0).val < 512 := (i 0).isLt
  have hi1 : (i 1).val < 65536 := (i 1).isLt
  obtain ⟨t, ht⟩ := idx_onto ⟨(i 1).val / 2048, by omega⟩
  have q1 : win0_3.index t (1 : Fin 2) = (i 1).val / 2048 := ht
  have q0 : win0_3.index t (0 : Fin 2) = 0 := (idx_facts t).2.2.2.2.2.2.1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- THE OUTPUT ARRAY after the run is the combine of the coefficients and the two gathered arrays as the kernel
    found them. -/
theorem final (c : Dev nD) :
    (dats m 0 c).arrAt 3 cfg0.N = combine (V m c main_v13) (V m c main_v25) (V m c main_v32) :=
  (dats m 0 c).arrAt_eq_of_cover 3 _ (fun t _ => flushed_eq m c t) cover

/-- The kernel's run re-posted: the result at the combine, the arguments unchanged. -/
theorem run : θ_run defs (onTc (τ := τ) (main (F := Ideal))) ⟨m, fun _ => 0, ρ⟩ fun r => ∀ c : Dev nD,
      r.2.mem ((c : Thread nD τ).loc main_v33) = combine (V m c main_v13) (V m c main_v25) (V m c main_v32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Final

end Cert.KernelIdeal.Whole

end
-- ==== Proof.RefRun.lean ====
/-
  The reference program's run, read back.

  The reference is a straight line of 64 host operations and launches no kernel: a softmax of the weights along their
  16 gates, its product with the 16 x 4 table of gate coefficients, the two columns of connections normalised
  (a negative index is shifted by the 8192 columns of x) and gathered from x, and the affine combine
  k0 + k1 a + k2 b + k3 (a b) with each coefficient column broadcast along the 512 rows.  Listed as operations,
  the program is their sequence, and every weakly fair execution of it terminates with every buffer holding the
  fold of the operations' results over the launch contents.  Nothing is evaluated here: the later modules read the
  fold one operation at a time.
-/
import proofs.«101925_j79259326480585_2_alg».proof.Proof.Gen.ReferenceIdeal
import Idealize.ShloMosaic.Lib.StableHlo.Run

noncomputable section

namespace Cert.ReferenceIdeal.HostLine

open Cert.ReferenceIdeal Cert.ReferenceIdeal.Gen Idealize.ShloMosaic Idealize.ShloMosaic.TcCoe Idealize.SL.Sem Idealize.ShloMosaic.StableHlo

variable {F : FTy → Type} [FloatOps F]

/-- The reference's 64 host operations, in program order. -/
abbrev ops : List (HloOp τ sig (Elt F)) :=
  [
    nullary main_cst (fun i => FloatOps.ofBits .f32 (lit0 (S16x4.rowMajor i))),
    nullary main_cst_0 (constant S_ .f32 0x3F800000#32),
    unary main_cst_0 main_v0 (broadcastInDim S65536x16 ![] bcast_S_S65536x16 : (⟨S_, .f32⟩ : BufTy).Contents (Elt F) → (⟨S65536x16, .f32⟩ : BufTy).Contents (Elt F)),
    binary main_arg1 main_v0 main_v1 (Host.divf : (⟨S65536x16, .f32⟩ : BufTy).Contents (Elt F) → (⟨S65536x16, .f32⟩ : BufTy).Contents (Elt F) → (⟨S65536x16, .f32⟩ : BufTy).Contents (Elt F)),
    nullary main_cst_1 (constant S_ .f32 0xFF800000#32),
    binary main_v1 main_cst_1 main_v2 ((fun x v => Host.reduce FloatOps.maximumf x v reducesTo_S65536x16_S65536_d1 h_S_) : (⟨S65536x16, .f32⟩ : BufTy).Contents (Elt F) → (⟨S_, .f32⟩ : BufTy).Contents (Elt F) → (⟨S65536, .f32⟩ : BufTy).Contents (Elt F)),
    nullary main_cst_2 (constant S_ .f32 0xFF800000#32),
    unary main_cst_2 main_v3 (broadcastInDim S65536 ![] bcast_S_S65536 : (⟨S_, .f32⟩ : BufTy).Contents (Elt F) → (⟨S65536, .f32⟩ : BufTy).Contents (Elt F)),
    binary main_v3 main_v2 main_v4 (maximumf : (⟨S65536, .f32⟩ : BufTy).Contents (Elt F) → (⟨S65536, .f32⟩ : BufTy).Contents (Elt F) → (⟨S65536, .f32⟩ : BufTy).Contents (Elt F)),
    unary main_v4 main_v5 (broadcastInDim S65536x1 ![0] bcast_S65536_S65536x1_0 : (⟨S65536, .f32⟩ : BufTy).Contents (Elt F) → (⟨S65536x1, .f32⟩ : BufTy).Contents (Elt F)),
    unary main_v5 main_v6 (broadcastInDim S65536x16 ![0, 1] bcast_S65536x1_S65536x16_0_1 : (⟨S65536x1, .f32⟩ : BufTy).Contents (Elt F) → (⟨S65536x16, .f32⟩ : BufTy).Contents (Elt F)),
    binary main_v1 main_v6 main_v7 (subf : (⟨S65536x16, .f32⟩ : BufTy).Contents (Elt F) → (⟨S65536x16, .f32⟩ : BufTy).Contents (Elt F) → (⟨S65536x16, .f32⟩ : BufTy).Contents (Elt F)),
    unary main_v7 main_v8 (Host.exp : (⟨S65536x16, .f32⟩ : BufTy).Contents (Elt F) → (⟨S65536x16, .f32⟩ : BufTy).Contents (Elt F)),
    nullary main_cst_3 (constant S_ .f32 0x00000000#32),
    binary main_v8 main_cst_3 main_v9 ((fun x v => Host.reduceAdd x v reducesTo_S65536x16_S65536_d1 h_S_) : (⟨S65536x16, .f32⟩ : BufTy).Contents (Elt F) → (⟨S_, .f32⟩ : BufTy).Contents (Elt F) → (⟨S65536, .f32⟩ : BufTy).Contents (Elt F)),
    unary main_v9 main_v10 (broadcastInDim S65536x1 ![0] bcast_S65536_S65536x1_0 : (⟨S65536, .f32⟩ : BufTy).Contents (Elt F) → (⟨S65536x1, .f32⟩ : BufTy).Contents (Elt F)),
    unary main_v10 main_v11 (broadcastInDim S65536x16 ![0, 1] bcast_S65536x1_S65536x16_0_1 : (⟨S65536x1, .f32⟩ : BufTy).Contents (Elt F) → (⟨S65536x16, .f32⟩ : BufTy).Contents (Elt F)),
    binary main_v8 main_v11 main_v12 (Host.divf : (⟨S65536x16, .f32⟩ : BufTy).Contents (Elt F) → (⟨S65536x16, .f32⟩ : BufTy).Contents (Elt F) → (⟨S65536x16, .f32⟩ : BufTy).Contents (Elt F)),
    binary main_v12 main_cst main_v13 ((fun l r => Host.dotGeneral dot_S65536x16_S16x4_S65536x4_1_0_0_1_n_n none l r) : (⟨S65536x16, .f32⟩ : BufTy).Contents (Elt F) → (⟨S16x4, .f32⟩ : BufTy).Contents (Elt F) → (⟨S65536x4, .f32⟩ : BufTy).Contents (Elt F)),
    unary main_arg2 main_v14 ((extractStridedSlice S65536x1 ![0, 0] · slices_S65536x2_S65536x1_0_0) : (⟨S65536x2, .i32⟩ : BufTy).Contents (Elt F) → (⟨S65536x1, .i32⟩ : BufTy).Contents (Elt F)),
    reshape main_v14 main_v15 rfl shapeCasts_S65536x1_S65536,
    nullary main_c (constantI S_ 32 0#32),
    unary main_c main_v16 (broadcastInDim S65536 ![] bcast_S_S65536 : (⟨S_, .i32⟩ : BufTy).Contents (Elt F) → (⟨S65536, .i32⟩ : BufTy).Contents (Elt F)),
    binary main_v15 main_v16 main_v17 (cmpi .slt : (⟨S65536, .i32⟩ : BufTy).Contents (Elt F) → (⟨S65536, .i32⟩ : BufTy).Contents (Elt F) → (⟨S65536, .i1⟩ : BufTy).Contents (Elt F)),
    nullary main_c_4 (constantI S_ 32 8192#32),
    unary main_c_4 main_v18 (broadcastInDim S65536 ![] bcast_S_S65536 : (⟨S_, .i32⟩ : BufTy).Contents (Elt F) → (⟨S65536, .i32⟩ : BufTy).Contents (Elt F)),
    binary main_v15 main_v18 main_v19 (addi : (⟨S65536, .i32⟩ : BufTy).Contents (Elt F) → (⟨S65536, .i32⟩ : BufTy).Contents (Elt F) → (⟨S65536, .i32⟩ : BufTy).Contents (Elt F)),
    ternary main_v17 main_v19 main_v15 main_v20 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v20 main_v21 (broadcastInDim S65536x1 ![0] bcast_S65536_S65536x1_0 : (⟨S65536, .i32⟩ : BufTy).Contents (Elt F) → (⟨S65536x1, .i32⟩ : BufTy).Contents (Elt F)),
    binary main_arg0 main_v21 main_v22 ((fun x i => Host.gather gather_S512x8192_S65536x1_S512x65536_0_1_n_n_1_1_5121 x i) : (⟨S512x8192, .f32⟩ : BufTy).Contents (Elt F) → (⟨S65536x1, .i32⟩ : BufTy).Contents (Elt F) → (⟨S512x65536, .f32⟩ : BufTy).Contents (Elt F)),
    unary main_arg2 main_v23 ((extractStridedSlice S65536x1 ![0, 1] · slices_S65536x2_S65536x1_0_1) : (⟨S65536x2, .i32⟩ : BufTy).Contents (Elt F) → (⟨S65536x1, .i32⟩ : BufTy).Contents (Elt F)),
    reshape main_v23 main_v24 rfl shapeCasts_S65536x1_S65536,
    nullary main_c_5 (constantI S_ 32 0#32),
    unary main_c_5 main_v25 (broadcastInDim S65536 ![] bcast_S_S65536 : (⟨S_, .i32⟩ : BufTy).Contents (Elt F) → (⟨S65536, .i32⟩ : BufTy).Contents (Elt F)),
    binary main_v24 main_v25 main_v26 (cmpi .slt : (⟨S65536, .i32⟩ : BufTy).Contents (Elt F) → (⟨S65536, .i32⟩ : BufTy).Contents (Elt F) → (⟨S65536, .i1⟩ : BufTy).Contents (Elt F)),
    nullary main_c_6 (constantI S_ 32 8192#32),
    unary main_c_6 main_v27 (broadcastInDim S65536 ![] bcast_S_S65536 : (⟨S_, .i32⟩ : BufTy).Contents (Elt F) → (⟨S65536, .i32⟩ : BufTy).Contents (Elt F)),
    binary main_v24 main_v27 main_v28 (addi : (⟨S65536, .i32⟩ : BufTy).Contents (Elt F) → (⟨S65536, .i32⟩ : BufTy).Contents (Elt F) → (⟨S65536, .i32⟩ : BufTy).Contents (Elt F)),
    ternary main_v26 main_v28 main_v24 main_v29 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v29 main_v30 (broadcastInDim S65536x1 ![0] bcast_S65536_S65536x1_0 : (⟨S65536, .i32⟩ : BufTy).Contents (Elt F) → (⟨S65536x1, .i32⟩ : BufTy).Contents (Elt F)),
    binary main_arg0 main_v30 main_v31 ((fun x i => Host.gather gather_S512x8192_S65536x1_S512x65536_0_1_n_n_1_1_5121 x i) : (⟨S512x8192, .f32⟩ : BufTy).Contents (Elt F) → (⟨S65536x1, .i32⟩ : BufTy).Contents (Elt F) → (⟨S512x65536, .f32⟩ : BufTy).Contents (Elt F)),
    unary main_v13 main_v32 ((extractStridedSlice S65536x1 ![0, 0] · slices_S65536x4_S65536x1_0_0) : (⟨S65536x4, .f32⟩ : BufTy).Contents (Elt F) → (⟨S65536x1, .f32⟩ : BufTy).Contents (Elt F)),
    reshape main_v32 main_v33 rfl shapeCasts_S65536x1_S65536,
    unary main_v13 main_v34 ((extractStridedSlice S65536x1 ![0, 1] · slices_S65536x4_S65536x1_0_1) : (⟨S65536x4, .f32⟩ : BufTy).Contents (Elt F) → (⟨S65536x1, .f32⟩ : BufTy).Contents (Elt F)),
    reshape main_v34 main_v35 rfl shapeCasts_S65536x1_S65536,
    unary main_v35 main_v36 (broadcastInDim S1x65536 ![1] bcast_S65536_S1x65536_1 : (⟨S65536, .f32⟩ : BufTy).Contents (Elt F) → (⟨S1x65536, .f32⟩ : BufTy).Contents (Elt F)),
    unary main_v36 main_v37 (broadcastInDim S512x65536 ![0, 1] bcast_S1x65536_S512x65536_0_1 : (⟨S1x65536, .f32⟩ : BufTy).Contents (Elt F) → (⟨S512x65536, .f32⟩ : BufTy).Contents (Elt F)),
    binary main_v37 main_v22 main_v38 (mulf : (⟨S512x65536, .f32⟩ : BufTy).Contents (Elt F) → (⟨S512x65536, .f32⟩ : BufTy).Contents (Elt F) → (⟨S512x65536, .f32⟩ : BufTy).Contents (Elt F)),
    unary main_v33 main_v39 (broadcastInDim S1x65536 ![1] bcast_S65536_S1x65536_1 : (⟨S65536, .f32⟩ : BufTy).Contents (Elt F) → (⟨S1x65536, .f32⟩ : BufTy).Contents (Elt F)),
    unary main_v39 main_v40 (broadcastInDim S512x65536 ![0, 1] bcast_S1x65536_S512x65536_0_1 : (⟨S1x65536, .f32⟩ : BufTy).Contents (Elt F) → (⟨S512x65536, .f32⟩ : BufTy).Contents (Elt F)),
    binary main_v40 main_v38 main_v41 (addf : (⟨S512x65536, .f32⟩ : BufTy).Contents (Elt F) → (⟨S512x65536, .f32⟩ : BufTy).Contents (Elt F) → (⟨S512x65536, .f32⟩ : BufTy).Contents (Elt F)),
    unary main_v13 main_v42 ((extractStridedSlice S65536x1 ![0, 2] · slices_S65536x4_S65536x1_0_2) : (⟨S65536x4, .f32⟩ : BufTy).Contents (Elt F) → (⟨S65536x1, .f32⟩ : BufTy).Contents (Elt F)),
    reshape main_v42 main_v43 rfl shapeCasts_S65536x1_S65536,
    unary main_v43 main_v44 (broadcastInDim S1x65536 ![1] bcast_S65536_S1x65536_1 : (⟨S65536, .f32⟩ : BufTy).Contents (Elt F) → (⟨S1x65536, .f32⟩ : BufTy).Contents (Elt F)),
    unary main_v44 main_v45 (broadcastInDim S512x65536 ![0, 1] bcast_S1x65536_S512x65536_0_1 : (⟨S1x65536, .f32⟩ : BufTy).Contents (Elt F) → (⟨S512x65536, .f32⟩ : BufTy).Contents (Elt F)),
    binary main_v45 main_v31 main_v46 (mulf : (⟨S512x65536, .f32⟩ : BufTy).Contents (Elt F) → (⟨S512x65536, .f32⟩ : BufTy).Contents (Elt F) → (⟨S512x65536, .f32⟩ : BufTy).Contents (Elt F)),
    binary main_v41 main_v46 main_v47 (addf : (⟨S512x65536, .f32⟩ : BufTy).Contents (Elt F) → (⟨S512x65536, .f32⟩ : BufTy).Contents (Elt F) → (⟨S512x65536, .f32⟩ : BufTy).Contents (Elt F)),
    unary main_v13 main_v48 ((extractStridedSlice S65536x1 ![0, 3] · slices_S65536x4_S65536x1_0_3) : (⟨S65536x4, .f32⟩ : BufTy).Contents (Elt F) → (⟨S65536x1, .f32⟩ : BufTy).Contents (Elt F)),
    reshape main_v48 main_v49 rfl shapeCasts_S65536x1_S65536,
    binary main_v22 main_v31 main_v50 (mulf : (⟨S512x65536, .f32⟩ : BufTy).Contents (Elt F) → (⟨S512x65536, .f32⟩ : BufTy).Contents (Elt F) → (⟨S512x65536, .f32⟩ : BufTy).Contents (Elt F)),
    unary main_v49 main_v51 (broadcastInDim S1x65536 ![1] bcast_S65536_S1x65536_1 : (⟨S65536, .f32⟩ : BufTy).Contents (Elt F) → (⟨S1x65536, .f32⟩ : BufTy).Contents (Elt F)),
    unary main_v51 main_v52 (broadcastInDim S512x65536 ![0, 1] bcast_S1x65536_S512x65536_0_1 : (⟨S1x65536, .f32⟩ : BufTy).Contents (Elt F) → (⟨S512x65536, .f32⟩ : BufTy).Contents (Elt F)),
    binary main_v52 main_v50 main_v53 (mulf : (⟨S512x65536, .f32⟩ : BufTy).Contents (Elt F) → (⟨S512x65536, .f32⟩ : BufTy).Contents (Elt F) → (⟨S512x65536, .f32⟩ : BufTy).Contents (Elt F)),
    binary main_v47 main_v53 main_v54 (addf : (⟨S512x65536, .f32⟩ : BufTy).Contents (Elt F) → (⟨S512x65536, .f32⟩ : BufTy).Contents (Elt F) → (⟨S512x65536, .f32⟩ : BufTy).Contents (Elt F)) ]

set_option maxRecDepth 65536 in
/-- The program is the sequence of these operations (its two printed parts, one after the other). -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., unary_bufs_sub .., binary_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., unary_bufs_sub .., binary_bufs_sub .., binary_bufs_sub ..⟩

/-- From any memory with zero counters, every weakly fair execution of the reference terminates, and every buffer
    of every core ends at the fold of the 64 operations over what the core was launched with. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

end Cert.ReferenceIdeal.HostLine

end
-- ==== Proof.RefTail.lean ====
/-
  The reference's result is the combine of three of its own intermediate arrays.

  After the softmax-and-table product K (65536 x 4) and the two gathers A and B (512 x 65536 each), the reference's
  last 23 operations are layout and arithmetic only: each of K's four columns is sliced out, flattened and broadcast
  along the rows, and the four broadcasts are combined with A, B and A·B.  Read one operation at a time, the result
  buffer is that expression of the three arrays as the whole program leaves them; read at an index (i, j) each
  broadcast column is K[j, c], so the result is the combine of K, A and B.  The three arrays themselves are never
  opened here.
-/
import proofs.«101925_j79259326480585_2_alg».proof.Proof.RefRun
import proofs.«101925_j79259326480585_2_alg».proof.Proof.Combine
import proofs.«101925_j79259326480585_2_alg».proof.Proof.LibStraightLine

noncomputable section

namespace Cert.ReferenceIdeal.HostLine

open Cert.ReferenceIdeal Cert.ReferenceIdeal.Gen Idealize.ShloMosaic Idealize.ShloMosaic.TcCoe Idealize.SL.Sem Idealize.ShloMosaic.StableHlo
open Idealize.ShloMosaic.StableHlo.StraightLine Idealize.ShloMosaic.ValueIdx Cert.LogicLayer

variable {F : FTy → Type} [FloatOps F]

/-- The buffer each of the 64 operations writes, in program order: no buffer is written twice. -/
abbrev outs : List (Ref sig .tc) :=
  [main_cst, main_cst_0, main_v0, main_v1, main_cst_1, main_v2, main_cst_2, main_v3, main_v4, main_v5, main_v6, main_v7, main_v8, main_cst_3, main_v9, main_v10, main_v11, main_v12, main_v13, main_v14, main_v15, main_c, main_v16, main_v17, main_c_4, main_v18, main_v19, main_v20, main_v21, main_v22, main_v23, main_v24, main_c_5, main_v25, main_v26, main_c_6, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54]

theorem writes : WritesAre (τ := τ) (ops (F := F)) outs := by
  unfold WritesAre; repeat' constructor

/-- What the whole program leaves in a buffer. -/
abbrev rd (V : Valuation τ sig (Elt F)) (b : Ref sig .tc) := after ops V (Proc.devRef .tc b)

/-- The tail's expression: the four coefficient columns of K, each laid along the rows, combined with A and B. -/
abbrev tail (K : FVec F S65536x4 .f32) (A B : FVec F S512x65536 .f32) : FVec F S512x65536 .f32 :=
  addf (addf (addf (broadcastInDim S512x65536 ![0, 1] bcast_S1x65536_S512x65536_0_1
        (broadcastInDim S1x65536 ![1] bcast_S65536_S1x65536_1
          (shapeCast S65536 (extractStridedSlice S65536x1 ![0, 0] K slices_S65536x4_S65536x1_0_0) shapeCasts_S65536x1_S65536)))
      (mulf (broadcastInDim S512x65536 ![0, 1] bcast_S1x65536_S512x65536_0_1
        (broadcastInDim S1x65536 ![1] bcast_S65536_S1x65536_1
          (shapeCast S65536 (extractStridedSlice S65536x1 ![0, 1] K slices_S65536x4_S65536x1_0_1) shapeCasts_S65536x1_S65536))) A))
      (mulf (broadcastInDim S512x65536 ![0, 1] bcast_S1x65536_S512x65536_0_1
        (broadcastInDim S1x65536 ![1] bcast_S65536_S1x65536_1
          (shapeCast S65536 (extractStridedSlice S65536x1 ![0, 2] K slices_S65536x4_S65536x1_0_2) shapeCasts_S65536x1_S65536))) B))
      (mulf (broadcastInDim S512x65536 ![0, 1] bcast_S1x65536_S512x65536_0_1
        (broadcastInDim S1x65536 ![1] bcast_S65536_S1x65536_1
          (shapeCast S65536 (extractStridedSlice S65536x1 ![0, 3] K slices_S65536x4_S65536x1_0_3) shapeCasts_S65536x1_S65536))) (mulf A B))

/-- THE RESULT BUFFER, one operation at a time: the tail's expression of the program's own K, A and B. -/
theorem result_eq_tail (V : Valuation τ sig (Elt F)) :
    rd V main_v54 = tail (rd V main_v13) (rd V main_v22) (rd V main_v31) := by
  have e_v54 : rd V main_v54 = addf (rd V main_v47) (rd V main_v53) :=
    binary_at (ops.take 63) (ops.drop 64) main_v47 main_v53 main_v54 _ _ _ _ V (writes.drop 63) (by decide) (by decide) (by decide)
  have e_v47 : rd V main_v47 = addf (rd V main_v41) (rd V main_v46) :=
    binary_at (ops.take 56) (ops.drop 57) main_v41 main_v46 main_v47 _ _ _ _ V (writes.drop 56) (by decide) (by decide) (by decide)
  have e_v41 : rd V main_v41 = addf (rd V main_v40) (rd V main_v38) :=
    binary_at (ops.take 50) (ops.drop 51) main_v40 main_v38 main_v41 _ _ _ _ V (writes.drop 50) (by decide) (by decide) (by decide)
  have e_v40 : rd V main_v40 = broadcastInDim S512x65536 ![0, 1] bcast_S1x65536_S512x65536_0_1 (rd V main_v39) :=
    unary_at (ops.take 49) (ops.drop 50) main_v39 main_v40 _ _ _ V (writes.drop 49) (by decide) (by decide)
  have e_v39 : rd V main_v39 = broadcastInDim S1x65536 ![1] bcast_S65536_S1x65536_1 (rd V main_v33) :=
    unary_at (ops.take 48) (ops.drop 49) main_v33 main_v39 _ _ _ V (writes.drop 48) (by decide) (by decide)
  have e_v33 : rd V main_v33 = shapeCast S65536 (rd V main_v32) shapeCasts_S65536x1_S65536 :=
    reshape_at (ops.take 42) (ops.drop 43) main_v32 main_v33 rfl shapeCasts_S65536x1_S65536 _ _ V (writes.drop 42) (by decide) (by decide)
  have e_v32 : rd V main_v32 = extractStridedSlice S65536x1 ![0, 0] (rd V main_v13) slices_S65536x4_S65536x1_0_0 :=
    unary_at (ops.take 41) (ops.drop 42) main_v13 main_v32 _ _ _ V (writes.drop 41) (by decide) (by decide)
  have e_v38 : rd V main_v38 = mulf (rd V main_v37) (rd V main_v22) :=
    binary_at (ops.take 47) (ops.drop 48) main_v37 main_v22 main_v38 _ _ _ _ V (writes.drop 47) (by decide) (by decide) (by decide)
  have e_v37 : rd V main_v37 = broadcastInDim S512x65536 ![0, 1] bcast_S1x65536_S512x65536_0_1 (rd V main_v36) :=
    unary_at (ops.take 46) (ops.drop 47) main_v36 main_v37 _ _ _ V (writes.drop 46) (by decide) (by decide)
  have e_v36 : rd V main_v36 = broadcastInDim S1x65536 ![1] bcast_S65536_S1x65536_1 (rd V main_v35) :=
    unary_at (ops.take 45) (ops.drop 46) main_v35 main_v36 _ _ _ V (writes.drop 45) (by decide) (by decide)
  have e_v35 : rd V main_v35 = shapeCast S65536 (rd V main_v34) shapeCasts_S65536x1_S65536 :=
    reshape_at (ops.take 44) (ops.drop 45) main_v34 main_v35 rfl shapeCasts_S65536x1_S65536 _ _ V (writes.drop 44) (by decide) (by decide)
  have e_v34 : rd V main_v34 = extractStridedSlice S65536x1 ![0, 1] (rd V main_v13) slices_S65536x4_S65536x1_0_1 :=
    unary_at (ops.take 43) (ops.drop 44) main_v13 main_v34 _ _ _ V (writes.drop 43) (by decide) (by decide)
  have e_v46 : rd V main_v46 = mulf (rd V main_v45) (rd V main_v31) :=
    binary_at (ops.take 55) (ops.drop 56) main_v45 main_v31 main_v46 _ _ _ _ V (writes.drop 55) (by decide) (by decide) (by decide)
  have e_v45 : rd V main_v45 = broadcastInDim S512x65536 ![0, 1] bcast_S1x65536_S512x65536_0_1 (rd V main_v44) :=
    unary_at (ops.take 54) (ops.drop 55) main_v44 main_v45 _ _ _ V (writes.drop 54) (by decide) (by decide)
  have e_v44 : rd V main_v44 = broadcastInDim S1x65536 ![1] bcast_S65536_S1x65536_1 (rd V main_v43) :=
    unary_at (ops.take 53) (ops.drop 54) main_v43 main_v44 _ _ _ V (writes.drop 53) (by decide) (by decide)
  have e_v43 : rd V main_v43 = shapeCast S65536 (rd V main_v42) shapeCasts_S65536x1_S65536 :=
    reshape_at (ops.take 52) (ops.drop 53) main_v42 main_v43 rfl shapeCasts_S65536x1_S65536 _ _ V (writes.drop 52) (by decide) (by decide)
  have e_v42 : rd V main_v42 = extractStridedSlice S65536x1 ![0, 2] (rd V main_v13) slices_S65536x4_S65536x1_0_2 :=
    unary_at (ops.take 51) (ops.drop 52) main_v13 main_v42 _ _ _ V (writes.drop 51) (by decide) (by decide)
  have e_v53 : rd V main_v53 = mulf (rd V main_v52) (rd V main_v50) :=
    binary_at (ops.take 62) (ops.drop 63) main_v52 main_v50 main_v53 _ _ _ _ V (writes.drop 62) (by decide) (by decide) (by decide)
  have e_v52 : rd V main_v52 = broadcastInDim S512x65536 ![0, 1] bcast_S1x65536_S512x65536_0_1 (rd V main_v51) :=
    unary_at (ops.take 61) (ops.drop 62) main_v51 main_v52 _ _ _ V (writes.drop 61) (by decide) (by decide)
  have e_v51 : rd V main_v51 = broadcastInDim S1x65536 ![1] bcast_S65536_S1x65536_1 (rd V main_v49) :=
    unary_at (ops.take 60) (ops.drop 61) main_v49 main_v51 _ _ _ V (writes.drop 60) (by decide) (by decide)
  have e_v49 : rd V main_v49 = shapeCast S65536 (rd V main_v48) shapeCasts_S65536x1_S65536 :=
    reshape_at (ops.take 58) (ops.drop 59) main_v48 main_v49 rfl shapeCasts_S65536x1_S65536 _ _ V (writes.drop 58) (by decide) (by decide)
  have e_v48 : rd V main_v48 = extractStridedSlice S65536x1 ![0, 3] (rd V main_v13) slices_S65536x4_S65536x1_0_3 :=
    unary_at (ops.take 57) (ops.drop 58) main_v13 main_v48 _ _ _ V (writes.drop 57) (by decide) (by decide)
  have e_v50 : rd V main_v50 = mulf (rd V main_v22) (rd V main_v31) :=
    binary_at (ops.take 59) (ops.drop 60) main_v22 main_v31 main_v50 _ _ _ _ V (writes.drop 59) (by decide) (by decide) (by decide)
  rw [e_v54, e_v47, e_v41, e_v40, e_v39, e_v33, e_v32, e_v38, e_v37, e_v36, e_v35, e_v34, e_v46, e_v45, e_v44, e_v43, e_v42, e_v53, e_v52, e_v51, e_v49, e_v48, e_v50]

/-- At the extended reals the tail's expression is the combine, index by index: the broadcast of column c reads
    K[j, c] at (i, j), and sums and products are taken entry by entry. -/
theorem tail_eq_combine (K : FVec Ideal S65536x4 .f32) (A B : FVec Ideal S512x65536 .f32) :
    tail K A B = combine K A B := by
  funext i
  obtain ⟨p, q, rfl⟩ : ∃ (p : Fin 512) (q : Fin 65536), i = ix2 p q := ⟨i 0, i 1, eq_ix2 i⟩
  have c0 := column_along_rows ![0, 0] (0 : Fin 4) rfl rfl K slices_S65536x4_S65536x1_0_0 shapeCasts_S65536x1_S65536 ![1] rfl bcast_S65536_S1x65536_1 ![0, 1] rfl bcast_S1x65536_S512x65536_0_1 p q
  have c1 := column_along_rows ![0, 1] (1 : Fin 4) rfl rfl K slices_S65536x4_S65536x1_0_1 shapeCasts_S65536x1_S65536 ![1] rfl bcast_S65536_S1x65536_1 ![0, 1] rfl bcast_S1x65536_S512x65536_0_1 p q
  have c2 := column_along_rows ![0, 2] (2 : Fin 4) rfl rfl K slices_S65536x4_S65536x1_0_2 shapeCasts_S65536x1_S65536 ![1] rfl bcast_S65536_S1x65536_1 ![0, 1] rfl bcast_S1x65536_S512x65536_0_1 p q
  have c3 := column_along_rows ![0, 3] (3 : Fin 4) rfl rfl K slices_S65536x4_S65536x1_0_3 shapeCasts_S65536x1_S65536 ![1] rfl bcast_S65536_S1x65536_1 ![0, 1] rfl bcast_S1x65536_S512x65536_0_1 p q
  rw [combine_apply]
  show (_ + _ * A (ix2 p q) + _ * B (ix2 p q)) + _ * (A (ix2 p q) * B (ix2 p q)) = _
  rw [c0, c1, c2, c3]

/-- So the reference's result is the combine of the K, A and B it computed. -/
theorem result_eq_combine (V : Valuation τ sig (Elt Ideal)) :
    rd V main_v54 = combine (rd V main_v13) (rd V main_v22) (rd V main_v31) :=
  (result_eq_tail V).trans (tail_eq_combine _ _ _)

/-- The reference's run re-posted: the result at the combine of its own K, A and B; the arguments, which no
    operation writes, unchanged. -/
theorem run_combine (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v54)
          = combine (rd (launchContents m c) main_v13) (rd (launchContents m c) main_v22) (rd (launchContents m c) main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c main_v54).trans (result_eq_combine (launchContents m c)),
      (h c main_arg0).trans (argument_kept writes (by decide) (launchContents m c)),
      (h c main_arg1).trans (argument_kept writes (by decide) (launchContents m c)),
      (h c main_arg2).trans (argument_kept writes (by decide) (launchContents m c))⟩)
    (run (F := Ideal) m ρ)

end Cert.ReferenceIdeal.HostLine

end
-- ==== Proof.SharedChain.lean ====
/-
  The two programs compute the same coefficients and the same two gathered arrays.

  Before they diverge, the kernel's host program and the reference apply the same operations to the same arguments:
  the softmax of the weights along the 16 gates followed by the product with the 16 x 4 coefficient table, and, for
  each of the two connection columns, the shift of negative indices by 8192 followed by the gather of x's columns.
  Each program's fold of operations, read at the buffer in question, opens to one composed expression of its
  arguments; the two expressions are the same function — they differ only in which program's copy of a shape, a
  broadcast witness, a dimension record or the literal table is named — applied to arguments that agree.  The
  function itself is never evaluated: once the arguments are identified it is a variable's image on both sides.
-/
import proofs.«101925_j79259326480585_2_alg».proof.Proof.RefRun
import proofs.«101925_j79259326480585_2_alg».proof.Proof.Gen.KernelIdeal.Frame
import Idealize.ShloMosaic.PureOps.Ideal

set_option maxRecDepth 16384

noncomputable section

namespace Cert.SharedChain

open Idealize.ShloMosaic Idealize.ShloMosaic.TcCoe Idealize.SL.Sem Idealize.ShloMosaic.StableHlo

variable (mK : (ℓ : Loc Cert.KernelIdeal.nD Cert.KernelIdeal.τ Cert.KernelIdeal.sig) → Buf (Elt Ideal) ℓ)
  (mR : (ℓ : Loc Cert.ReferenceIdeal.nD Cert.ReferenceIdeal.τ Cert.ReferenceIdeal.sig) → Buf (Elt Ideal) ℓ) (c : Dev Cert.KernelIdeal.nD)

/-- The coefficients: softmax of the weights, times the table — the same in both programs when the weights agree. -/
theorem coeffs_agree
    (h1 : mR ((c.tc : Thread Cert.ReferenceIdeal.nD Cert.ReferenceIdeal.τ).loc Cert.ReferenceIdeal.main_arg1) = mK ((c.tc : Thread Cert.KernelIdeal.nD Cert.KernelIdeal.τ).loc Cert.KernelIdeal.main_arg1)) :
    after Cert.ReferenceIdeal.HostLine.ops (launchContents mR c) (Proc.devRef .tc Cert.ReferenceIdeal.main_v13)
      = Cert.KernelIdeal.Gen.V mK c Cert.KernelIdeal.main_v13 := by
  dsimp only [Cert.KernelIdeal.Gen.V, Cert.KernelIdeal.Gen.hostOps0]
  after_results_simp
  have h1' : launchContents mR c (Proc.devRef .tc Cert.ReferenceIdeal.main_arg1) = mK (c, Proc.devRef .tc Cert.KernelIdeal.main_arg1) := h1
  rw [h1']
  generalize mK (c, Proc.devRef .tc Cert.KernelIdeal.main_arg1) = w
  rfl

/-- The first gathered array: x's columns at the first connection of each neuron. -/
theorem gathered_a_agree
    (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0))
    (h2 : mR ((c.tc : Thread Cert.ReferenceIdeal.nD Cert.ReferenceIdeal.τ).loc Cert.ReferenceIdeal.main_arg2) = mK ((c.tc : Thread Cert.KernelIdeal.nD Cert.KernelIdeal.τ).loc Cert.KernelIdeal.main_arg2)) :
    after Cert.ReferenceIdeal.HostLine.ops (launchContents mR c) (Proc.devRef .tc Cert.ReferenceIdeal.main_v22)
      = Cert.KernelIdeal.Gen.V mK c Cert.KernelIdeal.main_v25 := by
  dsimp only [Cert.KernelIdeal.Gen.V, Cert.KernelIdeal.Gen.hostOps0]
  after_results_simp
  have h0' : launchContents mR c (Proc.devRef .tc Cert.ReferenceIdeal.main_arg0) = mK (c, Proc.devRef .tc Cert.KernelIdeal.main_arg0) := h0
  have h2' : launchContents mR c (Proc.devRef .tc Cert.ReferenceIdeal.main_arg2) = mK (c, Proc.devRef .tc Cert.KernelIdeal.main_arg2) := h2
  rw [h0', h2']
  generalize mK (c, Proc.devRef .tc Cert.KernelIdeal.main_arg0) = x
  generalize mK (c, Proc.devRef .tc Cert.KernelIdeal.main_arg2) = conn
  rfl

/-- The second gathered array: x's columns at the second connection of each neuron. -/
theorem gathered_b_agree
    (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0))
    (h2 : mR ((c.tc : Thread Cert.ReferenceIdeal.nD Cert.ReferenceIdeal.τ).loc Cert.ReferenceIdeal.main_arg2) = mK ((c.tc : Thread Cert.KernelIdeal.nD Cert.KernelIdeal.τ).loc Cert.KernelIdeal.main_arg2)) :
    after Cert.ReferenceIdeal.HostLine.ops (launchContents mR c) (Proc.devRef .tc Cert.ReferenceIdeal.main_v31)
      = Cert.KernelIdeal.Gen.V mK c Cert.KernelIdeal.main_v32 := by
  dsimp only [Cert.KernelIdeal.Gen.V, Cert.KernelIdeal.Gen.hostOps0]
  after_results_simp
  have h0' : launchContents mR c (Proc.devRef .tc Cert.ReferenceIdeal.main_arg0) = mK (c, Proc.devRef .tc Cert.KernelIdeal.main_arg0) := h0
  have h2' : launchContents mR c (Proc.devRef .tc Cert.ReferenceIdeal.main_arg2) = mK (c, Proc.devRef .tc Cert.KernelIdeal.main_arg2) := h2
  rw [h0', h2']
  generalize mK (c, Proc.devRef .tc Cert.KernelIdeal.main_arg0) = x
  generalize mK (c, Proc.devRef .tc Cert.KernelIdeal.main_arg2) = conn
  rfl

end Cert.SharedChain

end
-- ==== Proof.lean ====
/-
  A logic layer's combine kernel against its reference, on the extended reals.

  Both programs take x (512 x 8192), weights (65536 x 16) and connections (65536 x 2) and return the 512 x 65536 array

      out[i, j] = ((K[j,0] + K[j,1] · a) + K[j,2] · b) + K[j,3] · (a · b),   a = A[i, j],  b = B[i, j],

  where K = softmax(weights) · T is the 65536 x 4 array of per-neuron coefficients (T the 16 x 4 table of the sixteen
  soft logic gates) and A, B gather the columns of x named by the two connection columns, a negative index first
  shifted by 8192.  K, A and B come from the same host operations in both programs.  The reference then broadcasts
  each column of K along the 512 rows and combines on the host; the kernel transposes K, and 32 grid points each
  combine one block of 2048 columns — all 512 rows of A and B and the four rows of the transposed K over those
  columns — and write it to the matching block of the output.

  The proof has four parts.  (1) The reference's 64 operations, read one at a time from its result back to K, A and
  B, give the combine of those three arrays.  (2) Each grid point's block is the combine of the three arrays as the
  kernel found them, read at the block's position; the 32 blocks tile the output, so the whole output is that
  combine.  (3) The two programs' K, A and B are equal when the arguments agree, being the same expression of them.
  (4) The frames: the two kernel programs' are the generated ones, the reference's is its run with the result
  dropped; the idealization rewrote nothing, so there is nothing to preserve.

  The two sides group the sum and the products identically, so no law of arithmetic is used and the inputs'
  finiteness is never opened.
-/
import proofs.«101925_j79259326480585_2_alg».proof.Defs
import proofs.«101925_j79259326480585_2_alg».proof.Proof.Gen.Kernel
import proofs.«101925_j79259326480585_2_alg».proof.Proof.Gen.Kernel.Skeleton
import proofs.«101925_j79259326480585_2_alg».proof.Proof.Gen.Kernel.Launch
import proofs.«101925_j79259326480585_2_alg».proof.Proof.Gen.Kernel.Points
import proofs.«101925_j79259326480585_2_alg».proof.Proof.Gen.Kernel.Frame
import proofs.«101925_j79259326480585_2_alg».proof.Proof.Gen.KernelIdeal
import proofs.«101925_j79259326480585_2_alg».proof.Proof.Gen.KernelIdeal.Skeleton
import proofs.«101925_j79259326480585_2_alg».proof.Proof.Gen.KernelIdeal.Launch
import proofs.«101925_j79259326480585_2_alg».proof.Proof.Gen.KernelIdeal.Points
import proofs.«101925_j79259326480585_2_alg».proof.Proof.Gen.KernelIdeal.Frame
import proofs.«101925_j79259326480585_2_alg».proof.Proof.Gen.KernelIdeal.Value
import proofs.«101925_j79259326480585_2_alg».proof.Proof.Gen.ReferenceIdeal
import proofs.«101925_j79259326480585_2_alg».proof.Proof.Gen.Pre_finite_inputs
import proofs.«101925_j79259326480585_2_alg».proof.Proof.KernelArray
import proofs.«101925_j79259326480585_2_alg».proof.Proof.RefTail
import proofs.«101925_j79259326480585_2_alg».proof.Proof.SharedChain
import Idealize.ShloMosaic.Adequacy
import Idealize.ShloMosaic.Init

noncomputable section

namespace Cert.Proof

open Idealize.ShloMosaic Idealize.SL.Sem Idealize.ShloMosaic.StableHlo Cert.LogicLayer

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a straight line of host operations none of which writes an argument. -/
theorem frame_reference : Cert.frame_ReferenceIdeal := fun m ρ _ =>
  (θ_run Cert.ReferenceIdeal.defs _ _).mono (fun _ h c => (h c).2) (Cert.ReferenceIdeal.HostLine.run_combine m ρ)

/-- From arguments that agree, both programs end at the combine of the kernel's K, A and B: the kernel block by
    block, the reference operation by operation over its own K, A and B, which are the kernel's. -/
theorem algebraic : Cert.algebraic_KernelIdeal_ReferenceIdeal := by
  intro m ρ m' ρ' _ hagree
  refine ⟨fun c => combine (Cert.KernelIdeal.Gen.V m c Cert.KernelIdeal.main_v13)
      (Cert.KernelIdeal.Gen.V m c Cert.KernelIdeal.main_v25) (Cert.KernelIdeal.Gen.V m c Cert.KernelIdeal.main_v32),
    Cert.KernelIdeal.Whole.run m ρ, ?_⟩
  refine (θ_run Cert.ReferenceIdeal.defs _ _).mono (fun _ h c => ⟨(h c).1.trans ?_, (h c).2⟩)
    (Cert.ReferenceIdeal.HostLine.run_combine m' ρ')
  show combine (after Cert.ReferenceIdeal.HostLine.ops (launchContents m' c) (Proc.devRef .tc Cert.ReferenceIdeal.main_v13))
      (after Cert.ReferenceIdeal.HostLine.ops (launchContents m' c) (Proc.devRef .tc Cert.ReferenceIdeal.main_v22))
      (after Cert.ReferenceIdeal.HostLine.ops (launchContents m' c) (Proc.devRef .tc Cert.ReferenceIdeal.main_v31)) = _
  rw [Cert.SharedChain.coeffs_agree m m' c (hagree c).2.1,
    Cert.SharedChain.gathered_a_agree m m' c (hagree c).1 (hagree c).2.2,
    Cert.SharedChain.gathered_b_agree m m' c (hagree c).1 (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
